-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x3200000 : Shape := ⟨2, ![2, 3200000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : FVec F S128x64 .f32) (main_arg2 : FVec F S64 .f32) (main_arg3 : FVec F S64x32 .f32) (main_arg4 : FVec F S32 .f32) (main_arg5 : IVec S2x3200000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_v13 main_v16
-- ==== Kernel.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S100000x32 : Shape := ⟨2, ![100000, 32]⟩
abbrev S5000x64 : Shape := ⟨2, ![5000, 64]⟩
abbrev S5000x32 : Shape := ⟨2, ![5000, 32]⟩
abbrev S3300000x32 : Shape := ⟨2, ![3300000, 32]⟩
abbrev S25000x128 : Shape := ⟨2, ![25000, 128]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S5000x128 : Shape := ⟨2, ![5000, 128]⟩

abbrev nBuf : Space → Nat
  | .hbm => 83
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3300000, .i32⟩
  | .hbm, ⟨22, _⟩ => ⟨S3300000, .i1⟩
  | .hbm, ⟨23, _⟩ => ⟨S_, .i32⟩
  | .hbm, ⟨24, _⟩ => ⟨S3300000, .i32⟩
  | .hbm, ⟨25, _⟩ => ⟨S3300000, .i32⟩
  | .hbm, ⟨26, _⟩ => ⟨S3300000, .i32⟩
  | .hbm, ⟨27, _⟩ => ⟨S3300000x1, .i32⟩
  | .hbm, ⟨28, _⟩ => ⟨S3300000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S128x64, .bf16⟩
  | .hbm, ⟨40, _⟩ => ⟨S64x32, .bf16⟩
  | .hbm, ⟨41, _⟩ => ⟨S100000x64, .f32⟩
  | .hbm, ⟨42, _⟩ => ⟨S_, .i32⟩
  | .hbm, ⟨43, _⟩ => ⟨S3300000, .i32⟩
  | .hbm, ⟨44, _⟩ => ⟨S3300000, .i1⟩
  | .hbm, ⟨45, _⟩ => ⟨S_, .i32⟩
  | .hbm, ⟨46, _⟩ => ⟨S3300000, .i32⟩
  | .hbm, ⟨47, _⟩ => ⟨S3300000, .i32⟩
  | .hbm, ⟨48, _⟩ => ⟨S3300000, .i32⟩
  | .hbm, ⟨49, _⟩ => ⟨S3300000x1, .i32⟩
  | .hbm, ⟨50, _⟩ => ⟨S3300000x64, .f32⟩
  | .hbm, ⟨51, _⟩ => ⟨S3300000x1, .f32⟩
  | .hbm, ⟨52, _⟩ => ⟨S3300000x64, .f32⟩
  | .hbm, ⟨53, _⟩ => ⟨S3300000x64, .f32⟩
  | .hbm, ⟨54, _⟩ => ⟨S_, .f32⟩
  | .hbm, ⟨55, _⟩ => ⟨S100000x64, .f32⟩
  | .hbm, ⟨56, _⟩ => ⟨S3300000x1, .i32⟩
  | .hbm, ⟨57, _⟩ => ⟨S100000x64, .f32⟩
  | .hbm, ⟨58, _⟩ => ⟨S1x64, .f32⟩
  | .hbm, ⟨59, _⟩ => ⟨S100000x32, .f32⟩
  | .hbm, ⟨60, _⟩ => ⟨S_, .i32⟩
  | .hbm, ⟨61, _⟩ => ⟨S3300000, .i32⟩
  | .hbm, ⟨62, _⟩ => ⟨S3300000, .i1⟩
  | .hbm, ⟨63, _⟩ => ⟨S_, .i32⟩
  | .hbm, ⟨64, _⟩ => ⟨S3300000, .i32⟩
  | .hbm, ⟨65, _⟩ => ⟨S3300000, .i32⟩
  | .hbm, ⟨66, _⟩ => ⟨S3300000, .i32⟩
  | .hbm, ⟨67, _⟩ => ⟨S3300000x1, .i32⟩
  | .hbm, ⟨68, _⟩ => ⟨S3300000x32, .f32⟩
  | .hbm, ⟨69, _⟩ => ⟨S3300000x1, .f32⟩
  | .hbm, ⟨70, _⟩ => ⟨S3300000x32, .f32⟩
  | .hbm, ⟨71, _⟩ => ⟨S3300000x32, .f32⟩
  | .hbm, ⟨72, _⟩ => ⟨S_, .f32⟩
  | .hbm, ⟨73, _⟩ => ⟨S100000x32, .f32⟩
  | .hbm, ⟨74, _⟩ => ⟨S3300000x1, .i32⟩
  | .hbm, ⟨75, _⟩ => ⟨S100000x32, .f32⟩
  | .hbm, ⟨76, _⟩ => ⟨S25000x128, .f32⟩
  | .hbm, ⟨77, _⟩ => ⟨S1x32, .f32⟩
  | .hbm, ⟨78, _⟩ => ⟨S4x32, .f32⟩
  | .hbm, ⟨79, _⟩ => ⟨S128, .f32⟩
  | .hbm, ⟨80, _⟩ => ⟨S1x128, .f32⟩
  | .hbm, ⟨81, _⟩ => ⟨S25000x128, .f32⟩
  | .hbm, ⟨82, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .bf16⟩
  | .local _ .vmem, ⟨3, _⟩ => ⟨S10000x64, .f32⟩
  | .local _ .vmem, ⟨4, _⟩ => ⟨S10000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x32, .bf16⟩
  | .local _ .vmem, ⟨9, _⟩ => ⟨S5000x32, .f32⟩
  | .local _ .vmem, ⟨10, _⟩ => ⟨S5000x32, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_7 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S100000x32_S25000x128 : S100000x32.ShapeCasts S25000x128
  shapeCasts_S32_S1x32 : S32.ShapeCasts S1x32
  bcast_S1x32_S4x32_0_1 : S1x32.BroadcastsInDim S4x32 (![0, 1] : Fin 2 → Fin S4x32.rank)
  shapeCasts_S4x32_S128 : S4x32.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S25000x128_S100000x32 : S25000x128.ShapeCasts S100000x32
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x32_S5000x32_1_0_0_1_n_n_wf : DotDims.WF S5000x64 S64x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .bf16 = 32 ∨ (Rect.block (s := S64x32) S64x32.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S25000x128.size a
  hwx2_0 : ∀ i : grid2.Coords, EltTy.bits .f32 = 32 ∨ (Rect.block (s := S25000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S25000x128.size a
  hwx2_2 : ∀ i : grid2.Coords, EltTy.bits .f32 = 32 ∨ (Rect.block (s := S25000x128) S5000x128.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x32 : Shape := ⟨2, ![100000, 32]⟩
abbrev S3300000x32 : Shape := ⟨2, ![3300000, 32]⟩
abbrev S1x32 : Shape := ⟨2, ![1, 32]⟩

abbrev nBuf : Space → Nat
  | .hbm => 82
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3300000, .i32⟩
  | .hbm, ⟨22, _⟩ => ⟨S3300000, .i1⟩
  | .hbm, ⟨23, _⟩ => ⟨S_, .i32⟩
  | .hbm, ⟨24, _⟩ => ⟨S3300000, .i32⟩
  | .hbm, ⟨25, _⟩ => ⟨S3300000, .i32⟩
  | .hbm, ⟨26, _⟩ => ⟨S3300000, .i32⟩
  | .hbm, ⟨27, _⟩ => ⟨S3300000x1, .i32⟩
  | .hbm, ⟨28, _⟩ => ⟨S3300000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S100000x64, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x64, .f32⟩
  | .hbm, ⟨49, _⟩ => ⟨S3300000x1, .f32⟩
  | .hbm, ⟨50, _⟩ => ⟨S3300000x64, .f32⟩
  | .hbm, ⟨51, _⟩ => ⟨S3300000x64, .f32⟩
  | .hbm, ⟨52, _⟩ => ⟨S_, .f32⟩
  | .hbm, ⟨53, _⟩ => ⟨S100000x64, .f32⟩
  | .hbm, ⟨54, _⟩ => ⟨S3300000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x32, .f32⟩
  | .hbm, ⟨63, _⟩ => ⟨S_, .i32⟩
  | .hbm, ⟨64, _⟩ => ⟨S3300000, .i32⟩
  | .hbm, ⟨65, _⟩ => ⟨S3300000, .i1⟩
  | .hbm, ⟨66, _⟩ => ⟨S_, .i32⟩
  | .hbm, ⟨67, _⟩ => ⟨S3300000, .i32⟩
  | .hbm, ⟨68, _⟩ => ⟨S3300000, .i32⟩
  | .hbm, ⟨69, _⟩ => ⟨S3300000, .i32⟩
  | .hbm, ⟨70, _⟩ => ⟨S3300000x1, .i32⟩
  | .hbm, ⟨71, _⟩ => ⟨S3300000x32, .f32⟩
  | .hbm, ⟨72, _⟩ => ⟨S3300000x1, .f32⟩
  | .hbm, ⟨73, _⟩ => ⟨S3300000x32, .f32⟩
  | .hbm, ⟨74, _⟩ => ⟨S3300000x32, .f32⟩
  | .hbm, ⟨75, _⟩ => ⟨S_, .f32⟩
  | .hbm, ⟨76, _⟩ => ⟨S100000x32, .f32⟩
  | .hbm, ⟨77, _⟩ => ⟨S3300000x1, .i32⟩
  | .hbm, ⟨78, _⟩ => ⟨S100000x32, .f32⟩
  | .hbm, ⟨79, _⟩ => ⟨S1x32, .f32⟩
  | .hbm, ⟨80, _⟩ => ⟨S100000x32, .f32⟩
  | .hbm, ⟨81, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

class Facts : Prop extends Facts₀ where

variable [Facts]
-- ==== Proof.WholeRun.lean ====
/-
  The whole program's run with its result named.

  The program is three regions among four stretches of host operations.  Every weakly fair execution terminates
  without a fault, and the final memory holds, at every unscoped buffer, the contents obtained by folding the
  stretches and the regions' write-backs from the launch memory.  Read at the result buffer this names the
  result; read at the argument buffers it gives back the launch contents.
-/
import proofs.«125622_j78494822302121_2_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the fold's contents and
    the six argument arrays end as launched. -/
theorem run : θ_run defs (onTc (τ := τ) (main (F := F))) ⟨m, fun _ => 0, ρ⟩ (fun r => ∀ c : Dev nD,
      r.2.mem ((c.tc : Thread nD τ).loc main_v64) = W7 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v64 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.WholeRun

end
-- ==== Proof.LibMatmulRows.lean ====
/-
  A matrix product into a zero accumulator, read at one row and one column.

  For an `M × K` matrix `l` and a `K × N` matrix `r` contracted along the one shared axis, the entry of
  `l · r` at row `p` and column `j` is `∑ k, l[p,k] · r[k,j]`.  At the exact values the product unit's result
  is the accumulator plus the sum over the contraction index of the operands' products; the accumulator is
  the zero word, and the contraction index — a one-axis multi-index — is identified with its one
  coordinate `k : Fin K`.  The dimension numbers enter only through four coordinate facts (which axis of
  each operand is the output's and which is the contracted one), so the lemma serves every plain
  row-by-column product whatever the name of its dimension record.
-/
import Idealize.ShloMosaic.PureOps.Ideal.Laws
import Idealize.ShloMosaic.Lib.ValueIdx

noncomputable section

open scoped BigOperators

namespace Cert.LibMatmulRows

open Idealize.ShloMosaic Idealize.ShloMosaic.ValueIdx

/-- `(l · r)[p, j] = ∑ k, l[p,k] · r[k,j]` for a product into the zero accumulator whose left operand index at
    output `i` and contraction position `q` is `(i 0, q)` and whose right operand index is `(q, i 1)`. -/
theorem matmul_zero_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    matmul D prec l r (constant (F := Ideal) ⟨2, ![M, N]⟩ .f32 0x00000000#32) (ix2 p j)
      = ∑ k : Fin K, l (ix2 p k) * r (ix2 k j) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibMatmulRows

end
-- ==== Proof.FirstLayer.lean ====
/-
  The first region: rows of `x` times the weight matrix.

  The 100000 rows of `x` (128 entries each) are cut into 10 blocks of 10000 rows; the 128 × 64 weight matrix is the
  same at every grid point.  A point multiplies its block of rows by the matrix into a zero accumulator and writes
  the 10000 × 64 result back to its block of the output, so — the 10 blocks tiling the output — entry `(n, j)` of the
  output array is `∑ k, x[n,k] · w[k,j]`, whatever the buffers held when the region was entered.  A change of float
  format is the identity at the exact values, so the narrowing of both operands does not show.
-/
import proofs.«125622_j78494822302121_2_alg».proof.Proof.Gen.KernelIdeal.Frame
import proofs.«125622_j78494822302121_2_alg».proof.Proof.LibMatmulRows
import Idealize.ShloMosaic.Lib.Pipeline.Value
import Idealize.ShloMosaic.Lib.ValueIdx

set_option maxRecDepth 16384

noncomputable section

open scoped BigOperators

namespace Cert.KernelIdeal.FirstLayer

open Idealize.ShloMosaic Idealize.ShloMosaic.TcCoe Idealize.ShloMosaic.ValueIdx Idealize.SL.Sem
open Cert.KernelIdeal Cert.KernelIdeal.Gen

/-- Row `n` of `a` against column `j` of `w`. -/
def rowsTimes (a : S100000x128.Idx → EReal) (w : S128x64.Idx → EReal) : S100000x64.Idx → EReal :=
  fun i => ∑ k : Fin 128, a (ix2 (i 0) k) * w (ix2 k (i 1))

theorem hz : (![0, 0] : Fin 2 → Nat) = fun _ => 0 := funext fun a => by fin_cases a <;> rfl

local notation "D₀" => dot_S10000x128_S128x64_S10000x64_1_0_0_1_n_n

/-! The block product's dimension numbers: the left operand's row is the output's row and its column the contracted
    position; the right operand's row is the contracted position and its column the output's column. -/

theorem lhs_row (i : S10000x64.Idx) (q : (D₀).contr.Idx) : ((D₀).lhsIdx i q 0).val = (i 0).val := by
  unfold DotDims.lhsIdx
  rw [dif_neg (show ¬(0 : Fin S10000x128.rank) ∈ (D₀).lhsBatch by decide),
    dif_pos (show (0 : Fin S10000x128.rank) ∈ (D₀).lhsNonContracting by decide)]
  rfl
theorem lhs_col (i : S10000x64.Idx) (q : (D₀).contr.Idx) : ((D₀).lhsIdx i q 1).val = (q ⟨0, by decide⟩).val :=
  (D₀).lhsIdx_val_of_single rfl i q
theorem rhs_row (i : S10000x64.Idx) (q : (D₀).contr.Idx) : ((D₀).rhsIdx i q 0).val = (q ⟨0, by decide⟩).val :=
  (D₀).rhsIdx_val_of_single rfl i q
theorem rhs_col (i : S10000x64.Idx) (q : (D₀).contr.Idx) : ((D₀).rhsIdx i q 1).val = (i 1).val := by
  unfold DotDims.rhsIdx
  rw [dif_neg (show ¬(1 : Fin S128x64.rank) ∈ (D₀).rhsBatch by decide),
    dif_pos (show (1 : Fin S128x64.rank) ∈ (D₀).rhsNonContracting by decide)]
  rfl

/-- The body's arithmetic at row `p`, column `j` of a block: the block's row against the matrix's column. -/
theorem pay_apply (x0 : Vec Ideal S10000x128 .f32) (x1 : Vec Ideal S128x64 .bf16) (p : Fin 10000) (j : Fin 64) :
    k0_pay1 (F := Ideal) x0 x1 (ix2 p j) = ∑ k : Fin 128, x0 (ix2 p k) * x1 (ix2 k j) := by
  unfold k0_pay1
  refine (Cert.LibMatmulRows.matmul_zero_apply (D₀) rfl rfl lhs_row lhs_col rhs_row rhs_col none _ _ p j).trans ?_
  rw [shapeCast_self]
  rfl

variable (V : (c : Dev nD) → (b : Ref sig .tc) → Buf (Elt Ideal) ((c : Thread nD τ).loc b))

/-- The printed index maps over the 10 grid points: the row blocks follow the point, the matrix stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A sum over the contraction index whose terms are read at matching places of the arrays. -/
theorem rowsTimes_at (a : S100000x128.Idx → EReal) (w : S128x64.Idx → EReal) (iR : S100000x64.Idx)
    (fa : Fin 128 → S100000x128.Idx) (fw : Fin 128 → S128x64.Idx)
    (ha : ∀ k, fa k = ix2 (iR 0) k) (hw : ∀ k, fw k = ix2 k (iR 1)) :
    (∑ k : Fin 128, a (fa k) * w (fw k)) = rowsTimes a w iR :=
  Finset.sum_congr rfl fun k _ => by rw [ha k, hw k]; rfl

/-- What point `t` writes back is block `t` of the rows-times-matrix array. -/
theorem flushed_eq (c : Dev nD) (t : Fin cfg0.N) :
    (dat0 V c).flushed 2 t
      = ((cfg0.win 2).blk t).view.read (Elt Ideal) (rowsTimes (V c main_arg0) (V c main_v27)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  refine (pay_apply _ _ p q).trans ?_
  refine rowsTimes_at (V c main_arg0) (V c main_v27) (((cfg0.win 2).blk t).view.emb (ix2 p q))
    (fun k => ((cfg0.win 0).blk t).view.emb (ix2 p k)) (fun k => ((cfg0.win 1).blk t).view.emb (ix2 k q)) (fun k => ?_) (fun k => ?_)
  · funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  · funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega

/-- An index of the output is in point `t`'s block iff its row is among the block's 10000 rows. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v29).slice (win0_2.rect t)).set ↔ _
  rw [View.set_slice_whole, Rect.mem_set_unit]
  exact Iff.rfl

/-- Row `n` lies in the block of point `n / 10000`: the 10 blocks tile the output. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨e0, e1, e2, e3, e4, e5⟩ := idx_facts t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region: every row of `x` against every column of the matrix. -/
theorem final (c : Dev nD) : (dat0 V c).arrAt 2 cfg0.N = rowsTimes (V c main_arg0) (V c main_v27) :=
  (dat0 V c).arrAt_eq_of_cover 2 _ (fun t _ => flushed_eq V c t) cover

end Cert.KernelIdeal.FirstLayer

end
-- ==== Proof.SecondLayer.lean ====
/-
  The second region: bias, rectifier and the second weight matrix, fused.

  The 100000 rows of the aggregated features (64 entries each) are cut into 20 blocks of 5000 rows; the bias is one
  row of 64 entries and the weight matrix is 64 × 32, both the same at every grid point.  A point adds the bias row
  to every row of its block, takes the maximum with zero, multiplies by the matrix into a zero accumulator and
  writes the 5000 × 32 result back to its block of the output.  The 20 blocks tile the output, so entry `(n, j)` of
  the output array is `∑ k, max (a[n,k] + b[0,k]) 0 · w[k,j]`, whatever the buffers held when the region was entered.
-/
import proofs.«125622_j78494822302121_2_alg».proof.Proof.Gen.KernelIdeal.Frame
import proofs.«125622_j78494822302121_2_alg».proof.Proof.LibMatmulRows
import Idealize.ShloMosaic.Lib.Pipeline.Value
import Idealize.ShloMosaic.Lib.ValueIdx
import Idealize.ShloMosaic.Lib.ValueLayout

set_option maxRecDepth 16384

noncomputable section

open scoped BigOperators

namespace Cert.KernelIdeal.SecondLayer

open Idealize.ShloMosaic Idealize.ShloMosaic.TcCoe Idealize.ShloMosaic.ValueIdx Idealize.SL.Sem
open Cert.KernelIdeal Cert.KernelIdeal.Gen

/-- The zero word's value. -/
abbrev zero : EReal := Ideal.ofBits .f32 0x00000000#32

/-- Row `n` of `a`, the bias row added and the negative part cut off, against column `j` of `w`. -/
def hiddenTimes (a : S100000x64.Idx → EReal) (b : S1x64.Idx → EReal) (w : S64x32.Idx → EReal) : S100000x32.Idx → EReal :=
  fun i => ∑ k : Fin 64, max (a (ix2 (i 0) k) + b (ix2 (0 : Fin 1) k)) zero * w (ix2 k (i 1))

theorem hz : (![0, 0] : Fin 2 → Nat) = fun _ => 0 := funext fun a => by fin_cases a <;> rfl

local notation "D₁" => dot_S5000x64_S64x32_S5000x32_1_0_0_1_n_n

/-! The block product's dimension numbers: the left operand's row is the output's row and its column the contracted
    position; the right operand's row is the contracted position and its column the output's column. -/

theorem lhs_row (i : S5000x32.Idx) (q : (D₁).contr.Idx) : ((D₁).lhsIdx i q 0).val = (i 0).val := by
  unfold DotDims.lhsIdx
  rw [dif_neg (show ¬(0 : Fin S5000x64.rank) ∈ (D₁).lhsBatch by decide),
    dif_pos (show (0 : Fin S5000x64.rank) ∈ (D₁).lhsNonContracting by decide)]
  rfl
theorem lhs_col (i : S5000x32.Idx) (q : (D₁).contr.Idx) : ((D₁).lhsIdx i q 1).val = (q ⟨0, by decide⟩).val :=
  (D₁).lhsIdx_val_of_single rfl i q
theorem rhs_row (i : S5000x32.Idx) (q : (D₁).contr.Idx) : ((D₁).rhsIdx i q 0).val = (q ⟨0, by decide⟩).val :=
  (D₁).rhsIdx_val_of_single rfl i q
theorem rhs_col (i : S5000x32.Idx) (q : (D₁).contr.Idx) : ((D₁).rhsIdx i q 1).val = (i 1).val := by
  unfold DotDims.rhsIdx
  rw [dif_neg (show ¬(1 : Fin S64x32.rank) ∈ (D₁).rhsBatch by decide),
    dif_pos (show (1 : Fin S64x32.rank) ∈ (D₁).rhsNonContracting by decide)]
  rfl

/-- The body's arithmetic at row `p`, column `j` of a block. -/
theorem pay_apply (x0 : Vec Ideal S5000x64 .f32) (x1 : Vec Ideal S1x64 .f32) (x2 : Vec Ideal S64x32 .bf16) (p : Fin 5000) (j : Fin 32) :
    k1_pay1 (F := Ideal) x0 x1 x2 (ix2 p j)
      = ∑ k : Fin 64, max (x0 (ix2 p k) + x1 (ix2 (0 : Fin 1) k)) zero * x2 (ix2 k j) := by
  unfold k1_pay1
  refine (Cert.LibMatmulRows.matmul_zero_apply (D₁) rfl rfl lhs_row lhs_col rhs_row rhs_col none _ _ p j).trans ?_
  refine Finset.sum_congr rfl fun k _ => ?_
  rw [shapeCast_self, shapeCast_self, shapeCast_self, truncf_apply, maximumf_apply, addf_apply, broadcastTo_1b_ab_apply]
  rfl

variable (V : (c : Dev nD) → (b : Ref sig .tc) → Buf (Elt Ideal) ((c : Thread nD τ).loc b))

/-- The printed index maps over the 20 grid points: the row blocks follow the point, the bias row and the matrix stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A sum over the contraction index whose terms are read at matching places of the arrays. -/
theorem hiddenTimes_at (a : S100000x64.Idx → EReal) (b : S1x64.Idx → EReal) (w : S64x32.Idx → EReal) (iR : S100000x32.Idx)
    (fa : Fin 64 → S100000x64.Idx) (fb : Fin 64 → S1x64.Idx) (fw : Fin 64 → S64x32.Idx)
    (ha : ∀ k, fa k = ix2 (iR 0) k) (hb : ∀ k, fb k = ix2 (0 : Fin 1) k) (hw : ∀ k, fw k = ix2 k (iR 1)) :
    (∑ k : Fin 64, max (a (fa k) + b (fb k)) zero * w (fw k)) = hiddenTimes a b w iR :=
  Finset.sum_congr rfl fun k _ => by rw [ha k, hb k, hw k]; rfl

/-- What point `t` writes back is block `t` of the array above. -/
theorem flushed_eq (c : Dev nD) (t : Fin cfg1.N) :
    (dat1 V c).flushed 3 t
      = ((cfg1.win 3).blk t).view.read (Elt Ideal) (hiddenTimes (V c main_v42) (V c main_v43) (V c main_v28)) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S64x32) hz]
  obtain ⟨e0, e1, e2, e3, e4, e5, e6, e7⟩ := idx_facts t
  funext j
  obtain ⟨p, q, rfl⟩ : ∃ (p : Fin 5000) (q : Fin 32), j = ix2 p q := ⟨j 0, j 1, eq_ix2 j⟩
  refine (pay_apply _ _ _ p q).trans ?_
  refine hiddenTimes_at (V c main_v42) (V c main_v43) (V c main_v28) (((cfg1.win 3).blk t).view.emb (ix2 p q))
    (fun k => ((cfg1.win 0).blk t).view.emb (ix2 p k)) (fun k => ((cfg1.win 1).blk t).view.emb (ix2 (0 : Fin 1) k))
    (fun k => ((cfg1.win 2).blk t).view.emb (ix2 k q)) (fun k => ?_) (fun k => ?_) (fun k => ?_)
  · funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 64 + 1 * k.val = k.val; omega
  · funext a; apply Fin.ext
    match a with
    | ⟨0, _⟩ => show win1_1.index t (0 : Fin 2) * 1 + 1 * 0 = 0; omega
    | ⟨1, _⟩ => show win1_1.index t (1 : Fin 2) * 64 + 1 * k.val = k.val; omega
  · funext a; apply Fin.ext
    match a with
    | ⟨0, _⟩ => show win1_2.index t (0 : Fin 2) * 64 + 1 * k.val = k.val; omega
    | ⟨1, _⟩ => show win1_2.index t (1 : Fin 2) * 32 + 1 * q.val = win1_3.index t (1 : Fin 2) * 32 + 1 * q.val; omega

/-- An index of the output is in point `t`'s block iff its row is among the block's 5000 rows. -/
theorem mem_blk (t : Fin cfg1.N) (i : S100000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v44).slice (win1_3.rect t)).set ↔ _
  rw [View.set_slice_whole, Rect.mem_set_unit]
  exact Iff.rfl

/-- Row `n` lies in the block of point `n / 5000`: the 20 blocks tile the output. -/
theorem cover (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 20 := N_1
  let t : Fin cfg1.N := ⟨(i 0).val / 5000, by rw [hN]; omega⟩
  obtain ⟨e0, e1, e2, e3, e4, e5, e6, e7⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 32 ≤ (i 1).val ∧ (i 1).val < win1_3.index t (1 : Fin 2) * 32 + 32; omega

/-- The output array after the region. -/
theorem final (c : Dev nD) : (dat1 V c).arrAt 3 cfg1.N = hiddenTimes (V c main_v42) (V c main_v43) (V c main_v28) :=
  (dat1 V c).arrAt_eq_of_cover 3 _ (fun t _ => flushed_eq V c t) cover

end Cert.KernelIdeal.SecondLayer

end
-- ==== Proof.BiasSlab.lean ====
/-
  The last region: a bias row added to every row of a slab.

  The array the region is handed has 25000 rows of 128 lanes and is cut into 5 blocks of 5000 rows; the
  second operand is a single row of 128 lanes, the same at every grid point.  Each point writes back its block of
  rows with the row added lane by lane, and the 5 blocks tile the array, so the whole output array is
  `a[r, l] + b[0, l]` — whatever the buffers held when the region was entered.
-/
import proofs.«125622_j78494822302121_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.BiasSlab

open Idealize.ShloMosaic Idealize.ShloMosaic.TcCoe Idealize.ShloMosaic.ValueIdx Idealize.SL.Sem
open Cert.KernelIdeal Cert.KernelIdeal.Gen

/-- Every row of `a` with the one row of `b` added to it. -/
def slab (a : S25000x128.Idx → EReal) (b : S1x128.Idx → EReal) : S25000x128.Idx → EReal :=
  fun i => a i + b (ix2 (0 : Fin 1) (i 1))

/-- The slab's entry at `iR`, from an entry of `a` and an entry of the row read at matching places. -/
theorem slab_at (a : S25000x128.Idx → EReal) (b : S1x128.Idx → EReal) (iA iR : S25000x128.Idx) (iB : S1x128.Idx)
    (h0 : iA = iR) (h1 : iB = ix2 (0 : Fin 1) (iR 1)) : a iA + b iB = slab a b iR := by
  subst h0 h1; rfl

theorem hz : (![0, 0] : Fin 2 → Nat) = fun _ => 0 := funext fun a => by fin_cases a <;> rfl

/-- The body's arithmetic at row `p`, lane `l` of a block: the block's entry plus the row's lane. -/
theorem pay_apply (x0 : Vec Ideal S5000x128 .f32) (x1 : Vec Ideal S1x128 .f32) (p : Fin 5000) (l : Fin 128) :
    k2_pay1 (F := Ideal) x0 x1 (ix2 p l) = x0 (ix2 p l) + x1 (ix2 (0 : Fin 1) l) := by
  unfold k2_pay1
  rw [addf_apply, shapeCast_self, shapeCast_self, broadcastTo_1b_ab_apply]

variable (V : (c : Dev nD) → (b : Ref sig .tc) → Buf (Elt Ideal) ((c : Thread nD τ).loc b))

/-- The printed index maps over the 5 grid points: the slab's blocks follow the point, the row stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the slab with the row added. -/
theorem flushed_eq (c : Dev nD) (t : Fin cfg2.N) :
    (dat2 V c).flushed 2 t
      = ((cfg2.win 2).blk t).view.read (Elt Ideal) (slab (V c main_v58) (V c main_v62)) := by
  show (cfg2.win 2).cut (grid2.coords t) ((dat2 V c).after 2 t) = _
  rw [after2_2]
  unfold out2_2
  rw [View.canon_unit_zero hz]
  simp only [View.ld_unit_zero (S := S5000x128) hz, View.ld_unit_zero (S := S1x128) hz]
  obtain ⟨e0, e1, e2, e3, e4, e5⟩ := idx_facts t
  funext j
  obtain ⟨p, l, rfl⟩ : ∃ (p : Fin 5000) (l : Fin 128), j = ix2 p l := ⟨j 0, j 1, eq_ix2 j⟩
  refine (pay_apply _ _ p l).trans ?_
  have h0 : ((cfg2.win 0).blk t).view.emb (ix2 p l) = ((cfg2.win 2).blk t).view.emb (ix2 p l) := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * l.val = win2_2.index t (1 : Fin 2) * 128 + 1 * l.val; omega
  have h1 : ((cfg2.win 1).blk t).view.emb (ix2 (0 : Fin 1) l)
      = ix2 (0 : Fin 1) ((((cfg2.win 2).blk t).view.emb (ix2 p l)) 1) := by
    funext a; apply Fin.ext
    match a with
    | ⟨0, _⟩ => show win2_1.index t (0 : Fin 2) * 1 + 1 * 0 = 0; omega
    | ⟨1, _⟩ => show win2_1.index t (1 : Fin 2) * 128 + 1 * l.val = win2_2.index t (1 : Fin 2) * 128 + 1 * l.val; omega
  exact slab_at (V c main_v58) (V c main_v62) (((cfg2.win 0).blk t).view.emb (ix2 p l)) (((cfg2.win 2).blk t).view.emb (ix2 p l))
    (((cfg2.win 1).blk t).view.emb (ix2 (0 : Fin 1) l)) h0 h1

/-- An index of the slab is in point `t`'s block iff its row is among the block's 5000 rows. -/
theorem mem_blk (t : Fin cfg2.N) (i : S25000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v63).slice (win2_2.rect t)).set ↔ _
  rw [View.set_slice_whole, Rect.mem_set_unit]
  exact Iff.rfl

/-- Row `r` lies in the block of point `r / 5000`: the 5 blocks tile the slab. -/
theorem cover (i : S25000x128.Idx) :
    ∃ t : Fin cfg2.N, (cfg2.win 2).flush t = true ∧ i ∈ ((cfg2.win 2).blk t).view.set := by
  have hi0 : (i 0).val < 25000 := (i 0).isLt
  have hi1 : (i 1).val < 128 := (i 1).isLt
  have hN : cfg2.N = 5 := N_2
  let t : Fin cfg2.N := ⟨(i 0).val / 5000, by rw [hN]; omega⟩
  obtain ⟨e0, e1, e2, e3, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region: the slab it was handed with the row added to every row. -/
theorem final (c : Dev nD) : (dat2 V c).arrAt 2 cfg2.N = slab (V c main_v58) (V c main_v62) :=
  (dat2 V c).arrAt_eq_of_cover 2 _ (fun t _ => flushed_eq V c t) cover

end Cert.KernelIdeal.BiasSlab

end
-- ==== Proof.LibHostRows.lean ====
/-
  Host-side row operations read at one entry, at the exact values.

  * A `dot_general` of an `M × K` by a `K × N` matrix along the one shared axis: entry `(p, j)` is
    `∑ k, l[p,k] · r[k,j]` — at the exact values the host's product has no accumulator, no rounding and no order.
  * A vector of length `C` viewed as one row and that row spread over `R` rows: entry `(p, k)` is the vector's `k`.
  * A vector of length `C` re-laid as a `1 × C` block: entry `(0, k)` is the vector's `k`.
-/
import Idealize.ShloMosaic.PureOps.Ideal.Laws
import Idealize.ShloMosaic.Lib.ValueIdx
import Idealize.ShloMosaic.Lib.Pipeline.Value

noncomputable section

open scoped BigOperators

namespace Cert.LibHostRows

open Idealize.ShloMosaic Idealize.ShloMosaic.ValueIdx

/-- `(l · r)[p, j] = ∑ k, l[p,k] · r[k,j]` for the host's product whose left operand index at output `i` and
    contraction position `q` is `(i 0, q)` and whose right operand index is `(q, i 1)`. -/
theorem hostDot_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    Host.dotGeneral (F := Ideal) D prec l r (ix2 p j) = ∑ k : Fin K, l (ix2 p k) * r (ix2 k j) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A vector viewed as one row, the row spread over `R` rows: entry `(p, k)` is the vector's entry `k`. -/
theorem rowOfVec_spread_apply {α : Type} {R C : ℕ} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (k : Fin C) :
    broadcastInDim ⟨2, ![R, C]⟩ ![0, 1] h2 (broadcastInDim ⟨2, ![1, C]⟩ ![1] h1 b) (ix2 p k) = b (ix1 k) := by
  rw [broadcastInDim_apply ![0, 1] h2 _ (ix2 p k) (ix2 (0 : Fin 1) k) (fun a => match a with
    | ⟨0, _⟩ => by show 0 = if (1 : Nat) = 1 then 0 else _; rw [if_pos rfl]
    | ⟨1, _⟩ => by show k.val = if C = 1 then 0 else k.val; rw [if_neg hC])]
  exact broadcastInDim_apply ![1] h1 b (ix2 (0 : Fin 1) k) (ix1 k) (fun a => match a with
    | ⟨0, _⟩ => by show k.val = if C = 1 then 0 else k.val; rw [if_neg hC])

/-- A vector re-laid as a one-row block: entry `(0, k)` is the vector's entry `k` (the same row-major position). -/
theorem rowOfVec_cast_apply {α : Type} {C : ℕ} (b : (⟨1, ![C]⟩ : Shape).Idx → α)
    (h : (⟨1, ![C]⟩ : Shape).ShapeCasts ⟨2, ![1, C]⟩) (k : Fin C) :
    shapeCast ⟨2, ![1, C]⟩ b h (ix2 (0 : Fin 1) k) = b (ix1 k) :=
  shapeCast_apply b h (ix2 (0 : Fin 1) k) (ix1 k) (by
    rw [Shape.rowMajor_val_one, Shape.rowMajor_val_two]
    show k.val = 0 * C + k.val
    omega)

end Cert.LibHostRows

end
-- ==== Proof.Bridge.lean ====
/-
  The three regions' arrays are the reference's stages.

  * Rows of `x` times the (narrowed) weight matrix is the reference's first product: both are `∑ k, x[n,k] · w[k,j]`,
    and a change of float format is the identity at the exact values.
  * The fused region — bias row added, negative part cut off, times the second matrix — is the reference's second
    product of the rectified, biased rows: the bias re-laid as one row reads the same entries as the bias
    spread over all rows, and the maximum with the zero word is the same function on both sides.
  * The lane-dense bias add: four rows of 32 merged into one row of 128 and the bias repeated four times.  Entry
    `(n, d)` sits at row-major position `32 n + d`, that is at row `(32 n + d) / 128`, lane `(32 n + d) % 128` of the
    merged slab; the repeated bias at that lane is `b[((32 n + d) % 128) % 32] = b[d]`.  So re-laying, adding the repeated
    row and laying back is adding `b[d]` to entry `(n, d)`: the reference's last addition.
  No law of the extended reals beyond these re-indexings is used, so nothing here needs the inputs to be finite.
-/
import proofs.«125622_j78494822302121_2_alg».proof.Proof.FirstLayer
import proofs.«125622_j78494822302121_2_alg».proof.Proof.SecondLayer
import proofs.«125622_j78494822302121_2_alg».proof.Proof.BiasSlab
import proofs.«125622_j78494822302121_2_alg».proof.Proof.LibHostRows
import proofs.«125622_j78494822302121_2_alg».proof.Proof.Gen.ReferenceIdeal.Read
import Idealize.ShloMosaic.Lib.ValueLayout

set_option maxRecDepth 16384

noncomputable section

open scoped BigOperators

namespace Cert.Bridge

open Idealize.ShloMosaic Idealize.ShloMosaic.TcCoe Idealize.ShloMosaic.ValueIdx
open Cert.KernelIdeal
open Cert.ReferenceIdeal.Read (val_main_v27 val_main_v27_apply lidx_main_v27 ridx_main_v27 val_main_v42 val_main_v41 val_main_call0_v0
  val_main_call0_cst val_main_v60 val_main_v59 lhs_main_v45_0 lhs_main_v45_1 rhs_main_v45_0 rhs_main_v45_1)

/-- The first region's array is the reference's first product. -/
theorem rowsTimes_eq (x0 : S100000x128.Idx → EReal) (x1 : FVec Ideal S128x64 .f32) (h : FTy.bf16.bits < FTy.f32.bits) :
    FirstLayer.rowsTimes x0 (truncf (F := Ideal) .bf16 x1 h) = val_main_v27 (F := Ideal) x0 x1 := by
  funext i
  refine Eq.trans ?_ (val_main_v27_apply x0 x1 i).symm
  unfold FirstLayer.rowsTimes
  refine Finset.sum_congr rfl fun k _ => ?_
  have el : lidx_main_v27 i k = ix2 (i 0) k := funext fun a => Fin.ext (by
    match a with
    | ⟨0, _⟩ => rfl
    | ⟨1, _⟩ => rfl)
  have er : ridx_main_v27 i k = ix2 k (i 1) := funext fun a => Fin.ext (by
    match a with
    | ⟨0, _⟩ => rfl
    | ⟨1, _⟩ => rfl)
  rw [el, er]
  rfl

/-- The fused region's array is the reference's second product of the rectified, biased rows. -/
theorem hiddenTimes_eq (a : FVec Ideal S100000x64 .f32) (x2 : FVec Ideal S64 .f32) (x3 : FVec Ideal S64x32 .f32)
    (hc : S64.ShapeCasts S1x64) (h : FTy.bf16.bits < FTy.f32.bits) :
    SecondLayer.hiddenTimes a (shapeCast S1x64 x2 hc) (truncf (F := Ideal) .bf16 x3 h)
      = Host.dotGeneral (F := Ideal) Cert.ReferenceIdeal.dot_S100000x64_S64x32_S100000x32_1_0_0_1_n_n none
          (maximumf (F := Ideal) (addf (F := Ideal) a (val_main_v42 (F := Ideal) x2)) (val_main_call0_v0 (F := Ideal))) x3 := by
  funext i
  obtain ⟨n, j, rfl⟩ : ∃ (n : Fin 100000) (j : Fin 32), i = ix2 n j := ⟨i 0, i 1, eq_ix2 i⟩
  refine Eq.trans ?_ (Cert.LibHostRows.hostDot_apply Cert.ReferenceIdeal.dot_S100000x64_S64x32_S100000x32_1_0_0_1_n_n rfl rfl
    lhs_main_v45_0 lhs_main_v45_1 rhs_main_v45_0 rhs_main_v45_1 none _ _ n j).symm
  unfold SecondLayer.hiddenTimes
  refine Finset.sum_congr rfl fun k _ => ?_
  have hb : shapeCast S1x64 x2 hc (ix2 (0 : Fin 1) k) = x2 (ix1 k) := shapeCast_a_1a_apply x2 hc 0 k
  have hr : val_main_v42 (F := Ideal) x2 (ix2 n k) = x2 (ix1 k) := by
    unfold val_main_v42 val_main_v41
    exact Cert.LibHostRows.rowOfVec_spread_apply (by decide) x2 _ _ n k
  rw [maximumf_apply, addf_apply, hr]
  show max (a (ix2 n k) + shapeCast S1x64 x2 hc (ix2 (0 : Fin 1) k)) SecondLayer.zero * x3 (ix2 k j) = _
  rw [hb]
  rfl

/-- Re-laying four rows of 32 as one row of 128, adding the four-times-repeated bias row and laying back is adding the
    bias entry `d` to entry `(n, d)`: the reference's last addition. -/
theorem slab_eq (g : FVec Ideal S100000x32 .f32) (x4 : FVec Ideal S32 .f32)
    (h1 : S100000x32.ShapeCasts S25000x128) (h2 : S32.ShapeCasts S1x32) (h3 : S1x32.BroadcastsInDim S4x32 ![0, 1])
    (h4 : S4x32.ShapeCasts S128) (h5 : S128.ShapeCasts S1x128) (h6 : S25000x128.ShapeCasts S100000x32) :
    shapeCast S100000x32 (BiasSlab.slab (shapeCast S25000x128 g h1)
        (shapeCast S1x128 (shapeCast S128 (broadcastInDim S4x32 ![0, 1] h3 (shapeCast S1x32 x4 h2)) h4) h5)) h6
      = addf (F := Ideal) g (val_main_v60 (F := Ideal) x4) := by
  funext i
  obtain ⟨n, d, rfl⟩ : ∃ (n : Fin 100000) (d : Fin 32), i = ix2 n d := ⟨i 0, i 1, eq_ix2 i⟩
  have hn := n.isLt
  have hd := d.isLt
  -- the merged slab's row and lane holding entry (n, d); the repeat and the entry of the bias at that lane
  let r : Fin 25000 := ⟨(n.val * 32 + d.val) / 128, by omega⟩
  let l : Fin 128 := ⟨(n.val * 32 + d.val) % 128, by omega⟩
  let q : Fin 4 := ⟨l.val / 32, by have := l.isLt; omega⟩
  let d' : Fin 32 := ⟨l.val % 32, by omega⟩
  have hr : r.val = (n.val * 32 + d.val) / 128 := rfl
  have hl : l.val = (n.val * 32 + d.val) % 128 := rfl
  have hq : q.val = l.val / 32 := rfl
  have hd' : d'.val = l.val % 32 := rfl
  have edd : d' = d := Fin.ext (by omega)
  have e1 := shapeCast_apply (BiasSlab.slab (shapeCast S25000x128 g h1)
      (shapeCast S1x128 (shapeCast S128 (broadcastInDim S4x32 ![0, 1] h3 (shapeCast S1x32 x4 h2)) h4) h5)) h6 (ix2 n d) (ix2 r l) (by
    rw [Shape.rowMajor_val_two, Shape.rowMajor_val_two]
    show r.val * 128 + l.val = n.val * 32 + d.val
    omega)
  have e2 : shapeCast S25000x128 g h1 (ix2 r l) = g (ix2 n d) := shapeCast_apply g h1 (ix2 r l) (ix2 n d) (by
    rw [Shape.rowMajor_val_two, Shape.rowMajor_val_two]
    show n.val * 32 + d.val = r.val * 128 + l.val
    omega)
  have e3 := shapeCast_a_1a_apply (shapeCast S128 (broadcastInDim S4x32 ![0, 1] h3 (shapeCast S1x32 x4 h2)) h4) h5 0 l
  have e4 : shapeCast S128 (broadcastInDim S4x32 ![0, 1] h3 (shapeCast S1x32 x4 h2)) h4 (ix1 l)
      = broadcastInDim S4x32 ![0, 1] h3 (shapeCast S1x32 x4 h2) (ix2 q d') :=
    shapeCast_apply _ h4 (ix1 l) (ix2 q d') (by
      rw [Shape.rowMajor_val_two, Shape.rowMajor_val_one]
      show q.val * 32 + d'.val = l.val
      omega)
  have e5 : broadcastInDim S4x32 ![0, 1] h3 (shapeCast S1x32 x4 h2) (ix2 q d') = shapeCast S1x32 x4 h2 (ix2 (0 : Fin 1) d') :=
    broadcastInDim_apply ![0, 1] h3 _ (ix2 q d') (ix2 (0 : Fin 1) d') (fun a => match a with
      | ⟨0, _⟩ => by show 0 = if (1 : Nat) = 1 then 0 else _; rw [if_pos rfl]
      | ⟨1, _⟩ => by show d'.val = if (32 : Nat) = 1 then 0 else d'.val; rw [if_neg (by decide)])
  have e6 := shapeCast_a_1a_apply x4 h2 0 d'
  have e7 : val_main_v60 (F := Ideal) x4 (ix2 n d) = x4 (ix1 d) := by
    unfold val_main_v60 val_main_v59
    exact Cert.LibHostRows.rowOfVec_spread_apply (by decide) x4 _ _ n d
  rw [e1, addf_apply, e7]
  show shapeCast S25000x128 g h1 (ix2 r l)
      + shapeCast S1x128 (shapeCast S128 (broadcastInDim S4x32 ![0, 1] h3 (shapeCast S1x32 x4 h2)) h4) h5 (ix2 (0 : Fin 1) l) = _
  rw [e2, e3, e4, e5, e6, edd]

end Cert.Bridge

end
-- ==== Proof.Fold.lean ====
/-
  The program's result, read back through the four stretches of host operations and the three regions.

  The buffers are followed from the launch memory: a stretch of host operations leaves each buffer it writes at its
  operation's value of the operands' contents and every other buffer as it was; a region leaves its output array at
  the array computed in its own module and every other buffer as it was.  The edge lists, the normalisation and the
  two gather–scale–scatter steps are the same host operations in the kernel's program and in the reference, so they
  are never opened: each buffer is identified with the reference's stage of the same name, and only the three
  regions' arrays need the re-indexing lemmas.  At the end the result buffer holds the reference's result.
-/
import proofs.«125622_j78494822302121_2_alg».proof.Proof.Bridge

set_option maxRecDepth 16384
set_option maxHeartbeats 4000000

noncomputable section

namespace Cert.KernelIdeal.Fold

open Idealize.ShloMosaic Idealize.ShloMosaic.TcCoe Idealize.SL.Sem Idealize.ShloMosaic.StableHlo
open Cert.KernelIdeal Cert.KernelIdeal.Gen
open Cert.ReferenceIdeal.Read (val_main_v3 val_main_v6 val_main_v26 val_main_v27 val_main_v40 val_main_v45 val_main_v58 val_main_v60 val_main_v61)

variable (m : (ℓ : Loc nD τ sig) → Buf (Elt Ideal) ℓ) (ρ : Dev nD → PrngReg) (c : Dev nD)

set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)

/-! ## Before the first region: the edge lists, the normalisation, the narrowed weights -/

theorem s1_v3 : W1 m ρ c (Proc.devRef .tc main_v3) = val_main_v3 (F := Ideal) x5 := by
  show StableHlo.after hostOps0 (W0 m ρ c) (Proc.devRef .tc main_v3) = _
  dsimp only [hostOps0]
  after_results_simp
  rfl
theorem s1_v6 : W1 m ρ c (Proc.devRef .tc main_v6) = val_main_v6 (F := Ideal) x5 := by
  show StableHlo.after hostOps0 (W0 m ρ c) (Proc.devRef .tc main_v6) = _
  dsimp only [hostOps0]
  after_results_simp
  rfl
theorem s1_v26 : W1 m ρ c (Proc.devRef .tc main_v26) = val_main_v26 (F := Ideal) x5 := by
  show StableHlo.after hostOps0 (W0 m ρ c) (Proc.devRef .tc main_v26) = _
  dsimp only [hostOps0]
  after_results_simp
  rfl
theorem s1_v27 : W1 m ρ c (Proc.devRef .tc main_v27) = truncf (F := Ideal) .bf16 x1 bitsLt_bf16_f32 := by
  show StableHlo.after hostOps0 (W0 m ρ c) (Proc.devRef .tc main_v27) = _
  dsimp only [hostOps0]
  after_results_simp
theorem s1_v28 : W1 m ρ c (Proc.devRef .tc main_v28) = truncf (F := Ideal) .bf16 x3 bitsLt_bf16_f32 := by
  show StableHlo.after hostOps0 (W0 m ρ c) (Proc.devRef .tc main_v28) = _
  dsimp only [hostOps0]
  after_results_simp
theorem s1_arg0 : W1 m ρ c (Proc.devRef .tc main_arg0) = x0 := by
  show StableHlo.after hostOps0 (W0 m ρ c) (Proc.devRef .tc main_arg0) = _
  dsimp only [hostOps0]
  after_results_simp
theorem s1_arg2 : W1 m ρ c (Proc.devRef .tc main_arg2) = x2 := by
  show StableHlo.after hostOps0 (W0 m ρ c) (Proc.devRef .tc main_arg2) = _
  dsimp only [hostOps0]
  after_results_simp
theorem s1_arg4 : W1 m ρ c (Proc.devRef .tc main_arg4) = x4 := by
  show StableHlo.after hostOps0 (W0 m ρ c) (Proc.devRef .tc main_arg4) = _
  dsimp only [hostOps0]
  after_results_simp

/-! ## After the first region: its output is the reference's first product; the rest is kept -/

theorem s2_v29 : W2 m ρ c (Proc.devRef .tc main_v29) = val_main_v27 (F := Ideal) x0 x1 := by
  refine (W2_arr m ρ c 2).trans ((FirstLayer.final (V1 m ρ) c).trans ?_)
  show FirstLayer.rowsTimes (W1 m ρ c (Proc.devRef .tc main_arg0)) (W1 m ρ c (Proc.devRef .tc main_v27)) = _
  rw [s1_arg0 m ρ c, s1_v27 m ρ c]
  exact Cert.Bridge.rowsTimes_eq _ _ _
theorem s2_v3 : W2 m ρ c (Proc.devRef .tc main_v3) = val_main_v3 (F := Ideal) x5 :=
  (W2_of_ne m ρ c main_v3 (by decide)).trans (s1_v3 m ρ c)
theorem s2_v6 : W2 m ρ c (Proc.devRef .tc main_v6) = val_main_v6 (F := Ideal) x5 :=
  (W2_of_ne m ρ c main_v6 (by decide)).trans (s1_v6 m ρ c)
theorem s2_v26 : W2 m ρ c (Proc.devRef .tc main_v26) = val_main_v26 (F := Ideal) x5 :=
  (W2_of_ne m ρ c main_v26 (by decide)).trans (s1_v26 m ρ c)
theorem s2_v28 : W2 m ρ c (Proc.devRef .tc main_v28) = truncf (F := Ideal) .bf16 x3 bitsLt_bf16_f32 :=
  (W2_of_ne m ρ c main_v28 (by decide)).trans (s1_v28 m ρ c)
theorem s2_arg2 : W2 m ρ c (Proc.devRef .tc main_arg2) = x2 :=
  (W2_of_ne m ρ c main_arg2 (by decide)).trans (s1_arg2 m ρ c)
theorem s2_arg4 : W2 m ρ c (Proc.devRef .tc main_arg4) = x4 :=
  (W2_of_ne m ρ c main_arg4 (by decide)).trans (s1_arg4 m ρ c)

/-! ## Before the second region: the first gather–scale–scatter is the reference's; the bias re-laid as a row -/

theorem s3_v42 : W3 m ρ c (Proc.devRef .tc main_v42) = val_main_v40 (F := Ideal) x0 x1 x5 := by
  show StableHlo.after hostOps1 (W2 m ρ c) (Proc.devRef .tc main_v42) = _
  dsimp only [hostOps1]
  after_results_simp
  rw [s2_v29 m ρ c, s2_v3 m ρ c, s2_v6 m ρ c, s2_v26 m ρ c]
  rfl
theorem s3_v43 : W3 m ρ c (Proc.devRef .tc main_v43) = shapeCast S1x64 x2 shapeCasts_S64_S1x64 := by
  show StableHlo.after hostOps1 (W2 m ρ c) (Proc.devRef .tc main_v43) = _
  dsimp only [hostOps1]
  after_results_simp
  rw [s2_arg2 m ρ c]
  rfl
theorem s3_v3 : W3 m ρ c (Proc.devRef .tc main_v3) = val_main_v3 (F := Ideal) x5 := by
  refine Eq.trans ?_ (s2_v3 m ρ c)
  show StableHlo.after hostOps1 (W2 m ρ c) (Proc.devRef .tc main_v3) = _
  dsimp only [hostOps1]
  after_results_simp
theorem s3_v6 : W3 m ρ c (Proc.devRef .tc main_v6) = val_main_v6 (F := Ideal) x5 := by
  refine Eq.trans ?_ (s2_v6 m ρ c)
  show StableHlo.after hostOps1 (W2 m ρ c) (Proc.devRef .tc main_v6) = _
  dsimp only [hostOps1]
  after_results_simp
theorem s3_v26 : W3 m ρ c (Proc.devRef .tc main_v26) = val_main_v26 (F := Ideal) x5 := by
  refine Eq.trans ?_ (s2_v26 m ρ c)
  show StableHlo.after hostOps1 (W2 m ρ c) (Proc.devRef .tc main_v26) = _
  dsimp only [hostOps1]
  after_results_simp
theorem s3_v28 : W3 m ρ c (Proc.devRef .tc main_v28) = truncf (F := Ideal) .bf16 x3 bitsLt_bf16_f32 := by
  refine Eq.trans ?_ (s2_v28 m ρ c)
  show StableHlo.after hostOps1 (W2 m ρ c) (Proc.devRef .tc main_v28) = _
  dsimp only [hostOps1]
  after_results_simp
theorem s3_arg4 : W3 m ρ c (Proc.devRef .tc main_arg4) = x4 := by
  refine Eq.trans ?_ (s2_arg4 m ρ c)
  show StableHlo.after hostOps1 (W2 m ρ c) (Proc.devRef .tc main_arg4) = _
  dsimp only [hostOps1]
  after_results_simp

/-! ## After the second region: its output is the reference's second product; the rest is kept -/

theorem s4_v44 : W4 m ρ c (Proc.devRef .tc main_v44) = val_main_v45 (F := Ideal) x0 x1 x2 x3 x5 := by
  refine (W4_arr m ρ c 3).trans ((SecondLayer.final (V3 m ρ) c).trans ?_)
  show SecondLayer.hiddenTimes (W3 m ρ c (Proc.devRef .tc main_v42)) (W3 m ρ c (Proc.devRef .tc main_v43)) (W3 m ρ c (Proc.devRef .tc main_v28)) = _
  rw [s3_v42 m ρ c, s3_v43 m ρ c, s3_v28 m ρ c]
  exact Cert.Bridge.hiddenTimes_eq _ _ _ _ _
theorem s4_v3 : W4 m ρ c (Proc.devRef .tc main_v3) = val_main_v3 (F := Ideal) x5 :=
  (W4_of_ne m ρ c main_v3 (by decide)).trans (s3_v3 m ρ c)
theorem s4_v6 : W4 m ρ c (Proc.devRef .tc main_v6) = val_main_v6 (F := Ideal) x5 :=
  (W4_of_ne m ρ c main_v6 (by decide)).trans (s3_v6 m ρ c)
theorem s4_v26 : W4 m ρ c (Proc.devRef .tc main_v26) = val_main_v26 (F := Ideal) x5 :=
  (W4_of_ne m ρ c main_v26 (by decide)).trans (s3_v26 m ρ c)
theorem s4_arg4 : W4 m ρ c (Proc.devRef .tc main_arg4) = x4 :=
  (W4_of_ne m ρ c main_arg4 (by decide)).trans (s3_arg4 m ρ c)

/-! ## Before the last region: the second gather–scale–scatter is the reference's, re-laid as a slab; the bias repeated -/

theorem s5_v58 : W5 m ρ c (Proc.devRef .tc main_v58)
    = shapeCast S25000x128 (val_main_v58 (F := Ideal) x0 x1 x2 x3 x5) shapeCasts_S100000x32_S25000x128 := by
  show StableHlo.after hostOps2 (W4 m ρ c) (Proc.devRef .tc main_v58) = _
  dsimp only [hostOps2]
  after_results_simp
  rw [s4_v44 m ρ c, s4_v3 m ρ c, s4_v6 m ρ c, s4_v26 m ρ c]
  rfl
theorem s5_v62 : W5 m ρ c (Proc.devRef .tc main_v62)
    = shapeCast S1x128 (shapeCast S128 (broadcastInDim S4x32 ![0, 1] bcast_S1x32_S4x32_0_1 (shapeCast S1x32 x4 shapeCasts_S32_S1x32))
        shapeCasts_S4x32_S128) shapeCasts_S128_S1x128 := by
  show StableHlo.after hostOps2 (W4 m ρ c) (Proc.devRef .tc main_v62) = _
  dsimp only [hostOps2]
  after_results_simp
  rw [s4_arg4 m ρ c]
  rfl

/-! ## The result: the slab with the repeated bias added, laid back, is the reference's result -/

theorem result_eq : W7 m ρ c (Proc.devRef .tc main_v64) = val_main_v61 (F := Ideal) x0 x1 x2 x3 x4 x5 := by
  have h7 : W7 m ρ c (Proc.devRef .tc main_v64)
      = shapeCast S100000x32 (W6 m ρ c (Proc.devRef .tc main_v63)) shapeCasts_S25000x128_S100000x32 := by
    show StableHlo.after hostOps3 (W6 m ρ c) (Proc.devRef .tc main_v64) = _
    dsimp only [hostOps3]
    after_results_simp
    rfl
  have h6 : W6 m ρ c (Proc.devRef .tc main_v63)
      = BiasSlab.slab (W5 m ρ c (Proc.devRef .tc main_v58)) (W5 m ρ c (Proc.devRef .tc main_v62)) :=
    (W6_arr m ρ c 2).trans (BiasSlab.final (V5 m ρ) c)
  rw [h7, h6, s5_v58 m ρ c, s5_v62 m ρ c]
  exact Cert.Bridge.slab_eq _ _ _ _ _ _ _ _

end Cert.KernelIdeal.Fold

end
-- ==== Proof.lean ====
/-
  A two-layer graph convolution: `out = Â · relu(Â · (x W₁) + b₁) · W₂ + b₂`, where `Â · t` stands for the
  gather–scale–scatter over the edge list with self loops and the symmetric normalisation by node degree.

  The kernel's program computes the two dense products and the last bias addition in three tiled regions and
  everything else — the edge lists, the degrees, the normalisation, both gather–scale–scatter steps — by the very host
  operations the reference uses.  At the exact values: the first region's output array is the reference's `x W₁` (a sum
  over the contraction index on both sides, the narrowing of the operands being the identity); the second region's is
  the reference's `relu(· + b₁) W₂` of the same aggregated array (the bias as a row, the maximum with zero, then the same
  sum); the third adds the bias in a lane-dense layout, four rows of 32 merged into one row of 128 against the bias
  repeated four times, which laid back is the reference's `· + b₂`.  The shared host operations are never opened, no
  algebraic law beyond re-indexing is used, and the precondition (finite inputs) is not needed.

  Modules: WholeRun (the run with the result buffer named), FirstLayer / SecondLayer / BiasSlab (each region's whole
  output array from its blocks), Bridge (the three arrays are the reference's stages), Fold (the result read back
  through the stretches of host operations and the regions).
-/
import proofs.«125622_j78494822302121_2_alg».proof.Defs
import proofs.«125622_j78494822302121_2_alg».proof.Proof.Gen.Kernel
import proofs.«125622_j78494822302121_2_alg».proof.Proof.Gen.Kernel.Skeleton
import proofs.«125622_j78494822302121_2_alg».proof.Proof.Gen.Kernel.Launch
import proofs.«125622_j78494822302121_2_alg».proof.Proof.Gen.Kernel.Points
import proofs.«125622_j78494822302121_2_alg».proof.Proof.Gen.Kernel.Frame
import proofs.«125622_j78494822302121_2_alg».proof.Proof.Gen.KernelIdeal
import proofs.«125622_j78494822302121_2_alg».proof.Proof.Gen.KernelIdeal.Skeleton
import proofs.«125622_j78494822302121_2_alg».proof.Proof.Gen.KernelIdeal.Launch
import proofs.«125622_j78494822302121_2_alg».proof.Proof.Gen.KernelIdeal.Points
import proofs.«125622_j78494822302121_2_alg».proof.Proof.Gen.KernelIdeal.Frame
import proofs.«125622_j78494822302121_2_alg».proof.Proof.Gen.ReferenceIdeal
import proofs.«125622_j78494822302121_2_alg».proof.Proof.Gen.ReferenceIdeal.Run
import proofs.«125622_j78494822302121_2_alg».proof.Proof.Gen.ReferenceIdeal.Read
import proofs.«125622_j78494822302121_2_alg».proof.Proof.Gen.Pre_finite_inputs
import proofs.«125622_j78494822302121_2_alg».proof.Proof.WholeRun
import proofs.«125622_j78494822302121_2_alg».proof.Proof.Fold
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_k : Cert.frame_Kernel := fun m ρ _ => Cert.Kernel.Gen.frame m ρ

/-- The idealized program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the reference's result: the kernel's result
    buffer, read back through its stretches and regions, is the reference's last stage of the same arguments. -/
theorem algebraic : Cert.algebraic_KernelIdeal_ReferenceIdeal := by
  intro m ρ m' ρ' _ hagree
  refine ⟨fun c => Cert.KernelIdeal.Gen.W7 m ρ c (Proc.devRef .tc Cert.KernelIdeal.main_v64),
    Cert.KernelIdeal.WholeRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, (hagree c).1, (hagree c).2.1, (hagree c).2.2.1, (hagree c).2.2.2.1,
    (hagree c).2.2.2.2.1, (hagree c).2.2.2.2.2]
  exact (Cert.KernelIdeal.Fold.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
